-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x20000 : Shape := ⟨2, ![256, 20000]⟩
abbrev S1600000x2 : Shape := ⟨2, ![1600000, 2]⟩
abbrev S1600000 : Shape := ⟨1, ![1600000]⟩
abbrev S8000 : Shape := ⟨1, ![8000]⟩
abbrev S_ : Shape := ⟨0, ![]⟩

class Facts : Prop where
  bcast_S_S256x20000 : S_.BroadcastsInDim S256x20000 (![] : Fin 0 → Fin S256x20000.rank)
  reducesTo_S256x20000_S_d0_1 : S256x20000.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S8000 : S_.BroadcastsInDim S8000 (![] : Fin 0 → Fin S8000.rank)
  reducesTo_S8000_S_d0 : S8000.ReducesTo [0] S_

variable [Facts]

def fn {F : FTy → Type} [FloatOps F] (main_arg0 : FVec F S256x20000 .f32) (main_arg1 : IVec S1600000x2 32) (main_arg2 : FVec F S1600000 .f32) (main_arg3 : FVec F S8000 .f32) : IVec S_ 1 :=
  let main_v0 : FVec F S256x20000 .f32 := Host.absf main_arg0
  let main_cst : FVec F S_ .f32 := constant S_ .f32 0x7F800000#32
  let main_v1 : FVec F S256x20000 .f32 := broadcastInDim S256x20000 ![] bcast_S_S256x20000 main_cst
  let main_v2 : IVec S256x20000 1 := cmpf .olt main_v0 main_v1
  let main_c : IVec S_ 1 := constantI S_ 1 1#1
  let main_v3 : IVec S_ 1 := (fun x v => Host.reduce IntOp.andi x v reducesTo_S256x20000_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S8000 .f32 := Host.absf main_arg3
  let main_cst_2 : FVec F S_ .f32 := constant S_ .f32 0x7F800000#32
  let main_v10 : FVec F S8000 .f32 := broadcastInDim S8000 ![] bcast_S_S8000 main_cst_2
  let main_v11 : IVec S8000 1 := cmpf .olt main_v9 main_v10
  let main_c_3 : IVec S_ 1 := constantI S_ 1 1#1
  let main_v12 : IVec S_ 1 := (fun x v => Host.reduce IntOp.andi x v reducesTo_S8000_S_d0 h_S_) main_v11 main_c_3
  let main_v13 : IVec S_ 1 := andi main_v8 main_v12
  main_v13
-- ==== Kernel.lean ====
abbrev S256x20000 : Shape := ⟨2, ![256, 20000]⟩
abbrev S1600000x2 : Shape := ⟨2, ![1600000, 2]⟩
abbrev S1600000 : Shape := ⟨1, ![1600000]⟩
abbrev S8000 : Shape := ⟨1, ![8000]⟩
abbrev S_ : Shape := ⟨0, ![]⟩
abbrev S20000x8000 : Shape := ⟨2, ![20000, 8000]⟩
abbrev S1600000x1 : Shape := ⟨2, ![1600000, 1]⟩
abbrev S20480x8192 : Shape := ⟨2, ![20480, 8192]⟩
abbrev S256x20480 : Shape := ⟨2, ![256, 20480]⟩
abbrev S8192 : Shape := ⟨1, ![8192]⟩
abbrev S1x8192 : Shape := ⟨2, ![1, 8192]⟩
abbrev S256x8192 : Shape := ⟨2, ![256, 8192]⟩
abbrev S256x2048 : Shape := ⟨2, ![256, 2048]⟩
abbrev S2048x2048 : Shape := ⟨2, ![2048, 2048]⟩
abbrev S1x2048 : Shape := ⟨2, ![1, 2048]⟩
abbrev S256x8000 : Shape := ⟨2, ![256, 8000]⟩

abbrev nBuf : Space → Nat
  | .hbm => 40
  | .vmem => 9
  | .smem => 0
  | _ => 0

abbrev bufTy : (tb : Table) → Fin (tcTables nBuf tb) → BufTy
  | .hbm, ⟨0, _⟩ => ⟨S256x20000, .f32⟩
  | .hbm, ⟨1, _⟩ => ⟨S1600000x2, .i32⟩
  | .hbm, ⟨2, _⟩ => ⟨S1600000, .f32⟩
  | .hbm, ⟨3, _⟩ => ⟨S8000, .f32⟩
  | .hbm, ⟨4, _⟩ => ⟨S_, .f32⟩
  | .hbm, ⟨5, _⟩ => ⟨S20000x8000, .f32⟩
  | .hbm, ⟨6, _⟩ => ⟨S1600000x1, .i32⟩
  | .hbm, ⟨7, _⟩ => ⟨S1600000, .i32⟩
  | .hbm, ⟨8, _⟩ => ⟨S1600000x1, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x1, .i32⟩
  | .hbm, ⟨26, _⟩ => ⟨S1600000x2, .i32⟩
  | .hbm, ⟨27, _⟩ => ⟨S20000x8000, .f32⟩
  | .hbm, ⟨28, _⟩ => ⟨S_, .i32⟩
  | .hbm, ⟨29, _⟩ => ⟨S_, .f32⟩
  | .hbm, ⟨30, _⟩ => ⟨S20480x8192, .f32⟩
  | .hbm, ⟨31, _⟩ => ⟨S_, .i32⟩
  | .hbm, ⟨32, _⟩ => ⟨S_, .f32⟩
  | .hbm, ⟨33, _⟩ => ⟨S256x20480, .f32⟩
  | .hbm, ⟨34, _⟩ => ⟨S_, .i32⟩
  | .hbm, ⟨35, _⟩ => ⟨S_, .f32⟩
  | .hbm, ⟨36, _⟩ => ⟨S8192, .f32⟩
  | .hbm, ⟨37, _⟩ => ⟨S1x8192, .f32⟩
  | .hbm, ⟨38, _⟩ => ⟨S256x8192, .f32⟩
  | .hbm, ⟨39, _⟩ => ⟨S256x8000, .f32⟩
  | .local _ .vmem, ⟨0, _⟩ => ⟨S256x2048, .f32⟩
  | .local _ .vmem, ⟨1, _⟩ => ⟨S256x2048, .f32⟩
  | .local _ .vmem, ⟨2, _⟩ => ⟨S2048x2048, .f32⟩
  | .local _ .vmem, ⟨3, _⟩ => ⟨S2048x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | _, _ => ⟨S256x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_3 : Ref sig .tc := ⟨.hbm, 28, rfl⟩
abbrev main_call0_v0 : Ref sig .tc := ⟨.hbm, 29, rfl⟩
abbrev main_v19 : Ref sig .tc := ⟨.hbm, 30, rfl⟩
abbrev main_c_4 : Ref sig .tc := ⟨.hbm, 31, rfl⟩
abbrev main_call1_v0 : Ref sig .tc := ⟨.hbm, 32, rfl⟩
abbrev main_v20 : Ref sig .tc := ⟨.hbm, 33, rfl⟩
abbrev main_c_5 : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 10], ![false, false]⟩

def k0_cond2 (i : grid0.Coords) : BitVec 1 :=
  let arg1 : BitVec 32 := BitVec.ofNat 32 (i 1).val
  let c9_i32 : BitVec 32 := 9#32
  let v15 : BitVec 1 := Scalar.cmpi .eq arg1 c9_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S20000x8000 : S_.BroadcastsInDim S20000x8000 (![] : Fin 0 → Fin S20000x8000.rank)
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  pads_S20000x8000_S20480x8192_04800_01920 : S20000x8000.Pads (![0, 0] : Fin 2 → Nat) ![480, 192] ![0, 0] S20480x8192
  h_S_ : 0 < S_.numel
  pads_S256x20000_S256x20480_000_04800 : S256x20000.Pads (![0, 0] : Fin 2 → Nat) ![0, 480] ![0, 0] S256x20480
  pads_S8000_S8192_01920 : S8000.Pads (![0] : Fin 1 → Nat) ![192] ![0] S8192
  shapeCasts_S8192_S1x8192 : S8192.ShapeCasts S1x8192
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  slices_S256x8192_S256x8000_0_0 : S256x8192.Slices ![0, 0] S256x8000
  scatter_S20000x8000_S1600000x2_S1600000_n_01_01_1_wf : ScatterDims.WF S20000x8000 S1600000x2 S1600000 [] [0, 1] [0, 1] 1
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x20480.size a
  hwx0_0 : ∀ i : grid0.Coords, EltTy.bits .f32 = 32 ∨ (Rect.block (s := S256x20480) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S20480x8192.size a
  hwx0_1 : ∀ i : grid0.Coords, EltTy.bits .f32 = 32 ∨ (Rect.block (s := S20480x8192) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x8192.size a
  hwx0_2 : ∀ i : grid0.Coords, EltTy.bits .f32 = 32 ∨ (Rect.block (s := S1x8192) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S256x8192.size a
  hwx0_3 : ∀ i : grid0.Coords, EltTy.bits .f32 = 32 ∨ (Rect.block (s := S256x8192) S256x2048.size (cc0_transform_3 i) (hinb0_3 i)).WholeWords (EltTy.packing .f32)

variable [Facts₀]

def scatter_S20000x8000_S1600000x2_S1600000_n_01_01_1 : ScatterDims S20000x8000 S1600000x2 S1600000 where
  updateWindowDims := []
  insertedWindowDims := [0, 1]
  scatterDimsToOperandDims := [0, 1]
  indexVectorDim := 1
  wf := scatter_S20000x8000_S1600000x2_S1600000_n_01_01_1_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v20) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x20000 : Shape := ⟨2, ![256, 20000]⟩
abbrev S1600000x2 : Shape := ⟨2, ![1600000, 2]⟩
abbrev S1600000 : Shape := ⟨1, ![1600000]⟩
abbrev S8000 : Shape := ⟨1, ![8000]⟩
abbrev S_ : Shape := ⟨0, ![]⟩
abbrev S20000x8000 : Shape := ⟨2, ![20000, 8000]⟩
abbrev S1600000x1 : Shape := ⟨2, ![1600000, 1]⟩
abbrev S256x8000 : Shape := ⟨2, ![256, 8000]⟩
abbrev S1x8000 : Shape := ⟨2, ![1, 8000]⟩

abbrev nBuf : Space → Nat
  | .hbm => 33
  | .vmem => 0
  | .smem => 0
  | _ => 0

abbrev bufTy : (tb : Table) → Fin (tcTables nBuf tb) → BufTy
  | .hbm, ⟨0, _⟩ => ⟨S256x20000, .f32⟩
  | .hbm, ⟨1, _⟩ => ⟨S1600000x2, .i32⟩
  | .hbm, ⟨2, _⟩ => ⟨S1600000, .f32⟩
  | .hbm, ⟨3, _⟩ => ⟨S8000, .f32⟩
  | .hbm, ⟨4, _⟩ => ⟨S_, .f32⟩
  | .hbm, ⟨5, _⟩ => ⟨S20000x8000, .f32⟩
  | .hbm, ⟨6, _⟩ => ⟨S1600000x1, .i32⟩
  | .hbm, ⟨7, _⟩ => ⟨S1600000, .i32⟩
  | .hbm, ⟨8, _⟩ => ⟨S1600000x1, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x1, .i32⟩
  | .hbm, ⟨26, _⟩ => ⟨S1600000x2, .i32⟩
  | .hbm, ⟨27, _⟩ => ⟨S20000x8000, .f32⟩
  | .hbm, ⟨28, _⟩ => ⟨S256x8000, .f32⟩
  | .hbm, ⟨29, _⟩ => ⟨S1x8000, .f32⟩
  | .hbm, ⟨30, _⟩ => ⟨S256x8000, .f32⟩
  | .hbm, ⟨31, _⟩ => ⟨S256x8000, .f32⟩
  | .hbm, ⟨32, _⟩ => ⟨S256x8000, .f32⟩
  | _, _ => ⟨S256x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S20000x8000 : S_.BroadcastsInDim S20000x8000 (![] : Fin 0 → Fin S20000x8000.rank)
  slices_S1600000x2_S1600000x1_0_0 : S1600000x2.Slices ![0, 0] S1600000x1
  shapeCasts_S1600000x1_S1600000 : S1600000x1.ShapeCasts S1600000
  slices_S1600000x2_S1600000x1_0_1 : S1600000x2.Slices ![0, 1] S1600000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x1_S1600000x1_S1600000x2_d1 : Shape.Concatenates [S1600000x1, S1600000x1] S1600000x2 1
  bcast_S8000_S1x8000_1 : S8000.BroadcastsInDim S1x8000 (![1] : Fin 1 → Fin S1x8000.rank)
  bcast_S1x8000_S256x8000_0_1 : S1x8000.BroadcastsInDim S256x8000 (![0, 1] : Fin 2 → Fin S256x8000.rank)
  scatter_S20000x8000_S1600000x2_S1600000_n_01_01_1_wf : ScatterDims.WF S20000x8000 S1600000x2 S1600000 [] [0, 1] [0, 1] 1
  dot_S256x20000_S20000x8000_S256x8000_1_0_0_1_n_n_wf : DotDims.WF S256x20000 S20000x8000 S256x8000 [1] [0] [0] [1] [] []

variable [Facts₀]

def scatter_S20000x8000_S1600000x2_S1600000_n_01_01_1 : ScatterDims S20000x8000 S1600000x2 S1600000 where
  updateWindowDims := []
  insertedWindowDims := [0, 1]
  scatterDimsToOperandDims := [0, 1]
  indexVectorDim := 1
  wf := scatter_S20000x8000_S1600000x2_S1600000_n_01_01_1_wf
def dot_S256x20000_S20000x8000_S256x8000_1_0_0_1_n_n : DotDims S256x20000 S20000x8000 S256x8000 where
  lhsContracting := [1]
  rhsContracting := [0]
  lhsNonContracting := [0]
  rhsNonContracting := [1]
  lhsBatch := []
  rhsBatch := []
  wf := dot_S256x20000_S20000x8000_S256x8000_1_0_0_1_n_n_wf

class Facts : Prop extends Facts₀ where

variable [Facts]
-- ==== Proof.Pieces.lean ====
/-
  What one run of the kernel body leaves behind, as plain values.  The body keeps a [256, 2048] accumulator in
  scratch: at the first step of the contracted axis it stores zeros there; at every step it reads the accumulator
  back, adds the product of the current [256, 2048] block of the left operand with the current [2048, 2048] block
  of the right operand, and stores the sum; at the last step it reads the accumulator once more, adds the bias
  row and stores the hyperbolic tangent into the output block.  Each store covers its whole buffer, so what a
  buffer holds afterwards is the value last stored, and a load that follows a store reads that value.
-/
import proofs.«176601_j86509231276655_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of the contracted axis: the accumulator ends at (zeros) + (block product). -/
theorem scratch_first (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : cond0_0 i) (hc1 : ¬cond0_1 i)
    (x0 : Vec F S256x2048 .f32) (x1 : Vec F S2048x2048 .f32) (x2 : Vec F S1x2048 .f32) :
    sout0_A_0 c i arg2 harg2 arg3 harg3 arg4 harg4 arg5 harg5 arg6 harg6 hc0 hc1 x0 x1 x2 = k0_pay2 x0 x1 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x2048) hz, View.readCov_unit_zero (S := S256x2048) _ hz]
  simp only [View.readAt_eq_ld, harg2.read_unread, harg3.read_unread, View.ld_unit_zero (S := S256x2048) hz,
    View.ld_unit_zero (S := S2048x2048) hz]

/-- A middle step: the accumulator ends at (what it held) + (block product). -/
theorem scratch_middle (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : ¬cond0_1 i)
    (x0 : Vec F S256x2048 .f32) (x1 : Vec F S2048x2048 .f32) (x2 : Vec F S1x2048 .f32) (xs0 : Vec F S256x2048 .f32) :
    sout0_B_0 c i arg2 harg2 arg3 harg3 arg4 harg4 arg5 harg5 arg6 harg6 hc0 hc1 x0 x1 x2 xs0 = k0_pay2 x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz]
  simp only [View.readAt_eq_ld, harg2.read_unread, harg3.read_unread, harg6.read_unread,
    View.ld_unit_zero (S := S256x2048) hz, View.ld_unit_zero (S := S2048x2048) hz]

/-- The last step: the accumulator is updated as at a middle step, -/
theorem scratch_last (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .f32) (x1 : Vec F S2048x2048 .f32) (x2 : Vec F S1x2048 .f32) (xs0 : Vec F S256x2048 .f32) :
    sout0_C_0 c i arg2 harg2 arg3 harg3 arg4 harg4 arg5 harg5 arg6 harg6 hc0 hc1 x0 x1 x2 xs0 = k0_pay2 x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg3.read_unread, harg6.read_unread,
    View.ld_unit_zero (S := S256x2048) hz, View.ld_unit_zero (S := S2048x2048) hz]

/-- and the output block receives tanh (updated accumulator + bias row). -/
theorem out_last (c : Dev nD) (i : grid0.Coords) (arg2 : Memref sig .tc .vmem S256x2048 .f32) (harg2 : arg2.IsWhole) (arg3 : Memref sig .tc .vmem S2048x2048 .f32) (harg3 : arg3.IsWhole) (arg4 : Memref sig .tc .vmem S1x2048 .f32) (harg4 : arg4.IsWhole) (arg5 : Memref sig .tc .vmem S256x2048 .f32) (harg5 : arg5.IsWhole) (arg6 : Memref sig .tc .vmem S256x2048 .f32) (harg6 : arg6.IsWhole) (hc0 : ¬cond0_0 i) (hc1 : cond0_1 i)
    (x0 : Vec F S256x2048 .f32) (x1 : Vec F S2048x2048 .f32) (x2 : Vec F S1x2048 .f32) (xs0 : Vec F S256x2048 .f32) :
    out0_C_3 c i arg2 harg2 arg3 harg3 arg4 harg4 arg5 harg5 arg6 harg6 hc0 hc1 x0 x1 x2 xs0 = k0_pay3 (k0_pay2 x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S256x2048) _ hz]
  simp only [View.readAt_eq_ld, harg2.read_unread, harg3.read_unread, harg4.read_unread, harg6.read_unread,
    View.ld_unit_zero (S := S256x2048) hz, View.ld_unit_zero (S := S2048x2048) hz, View.ld_unit_zero (S := S1x2048) hz]

end Cert.KernelIdeal.Pieces

end
-- ==== Proof.Steps.lean ====
/-
  What the accumulator and the output's staging buffer hold after the body has run at grid point t, in terms of
  the body's stored values: at a point that starts a pass over the contracted axis (t % 10 = 0) the accumulator
  is the update of the zero block; at any later point it is the update of what the point before left; and at the
  point that ends the pass (t % 10 = 9) the output's buffer receives the output value of that updated accumulator.
-/
import proofs.«176601_j86509231276655_1_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- The accumulator after a point that starts a pass. -/
theorem acc_first (c : Dev nD) (t : Fin cfg0.N) (h0 : t.val % 10 = 0) (h1 : ¬t.val % 10 = 9) :
    (outsAt0 m c t.val t.isLt).2 = k0_pay2 (iblk m c 0 t) (iblk m c 1 t) (k0_pay1 (F := F)) := by
  rw [outsAt0_A m c t h0 h1]
  dsimp only
  exact Pieces.scratch_first c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- The accumulator after a point in the middle of a pass. -/
theorem acc_middle (c : Dev nD) (t : Fin cfg0.N) (h0 : ¬t.val % 10 = 0) (h1 : ¬t.val % 10 = 9) :
    (outsAt0 m c t.val t.isLt).2 = k0_pay2 (iblk m c 0 t) (iblk m c 1 t) (outsAt0 m c (t.val - 1) (Nat.lt_of_le_of_lt (Nat.sub_le _ _) t.isLt)).2 := by
  rw [outsAt0_B m c t h0 h1]
  dsimp only
  exact Pieces.scratch_middle c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
    (iblk m c 0 t) (iblk m c 1 t) (iblk m c 2 t) (outsAt0 m c (t.val - 1) (Nat.lt_of_le_of_lt (Nat.sub_le _ _) t.isLt)).2

/-- The accumulator after the point that ends a pass. -/
theorem acc_last (c : Dev nD) (t : Fin cfg0.N) (h0 : ¬t.val % 10 = 0) (h1 : t.val % 10 = 9) :
    (outsAt0 m c t.val t.isLt).2 = k0_pay2 (iblk m c 0 t) (iblk m c 1 t) (outsAt0 m c (t.val - 1) (Nat.lt_of_le_of_lt (Nat.sub_le _ _) t.isLt)).2 := by
  rw [outsAt0_C m c t h0 h1]
  dsimp only
  exact Pieces.scratch_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

/-- The output's staging buffer after the point that ends a pass. -/
theorem out_last (c : Dev nD) (t : Fin cfg0.N) (h0 : ¬t.val % 10 = 0) (h1 : t.val % 10 = 9) :
    (outsAt0 m c t.val t.isLt).1
      = k0_pay3 (k0_pay2 (iblk m c 0 t) (iblk m c 1 t) (outsAt0 m c (t.val - 1) (Nat.lt_of_le_of_lt (Nat.sub_le _ _) t.isLt)).2) (iblk m c 2 t) := by
  rw [outsAt0_C m c t h0 h1]
  dsimp only
  exact Pieces.out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (Nat.lt_of_le_of_lt (Nat.sub_le _ _) t.isLt)).2

end Cert.KernelIdeal.Steps

end
-- ==== Proof.Payload.lean ====
/-
  The body's three stored values read at one entry, over the extended reals.  A change of float format is the
  identity there, a matrix product into a zero accumulator is the plain sum of products over the contracted axis,
  and a [1, 2048] row broadcast down 256 rows reads the row's entry of the same column.  So at entry (p, q):
    the reset value is 0;
    the accumulator update is  old (p, q) + ∑ κ < 2048, a (p, κ) · b (κ, q);
    the output value is        tanh (acc (p, q) + bias (0, q)).
-/
import proofs.«176601_j86509231276655_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-! ### The block product's operand indices: result (p, q) and contracted position κ read a (p, κ) and b (κ, q) -/

theorem lhs_0 (i : S256x2048.Idx) (k : dot_S256x2048_S2048x2048_S256x2048_1_0_0_1_n_n.contr.Idx) : (dot_S256x2048_S2048x2048_S256x2048_1_0_0_1_n_n.lhsIdx i k 0).val = (i 0).val := by
  unfold DotDims.lhsIdx
  rw [dif_neg (show ¬(0 : Fin S256x2048.rank) ∈ dot_S256x2048_S2048x2048_S256x2048_1_0_0_1_n_n.lhsBatch by decide),
    dif_pos (show (0 : Fin S256x2048.rank) ∈ dot_S256x2048_S2048x2048_S256x2048_1_0_0_1_n_n.lhsNonContracting by decide)]
  rfl

theorem lhs_1 (i : S256x2048.Idx) (k : dot_S256x2048_S2048x2048_S256x2048_1_0_0_1_n_n.contr.Idx) : (dot_S256x2048_S2048x2048_S256x2048_1_0_0_1_n_n.lhsIdx i k 1).val = (k ⟨0, by decide⟩).val :=
  dot_S256x2048_S2048x2048_S256x2048_1_0_0_1_n_n.lhsIdx_val_of_single rfl i k

theorem rhs_0 (i : S256x2048.Idx) (k : dot_S256x2048_S2048x2048_S256x2048_1_0_0_1_n_n.contr.Idx) : (dot_S256x2048_S2048x2048_S256x2048_1_0_0_1_n_n.rhsIdx i k 0).val = (k ⟨0, by decide⟩).val :=
  dot_S256x2048_S2048x2048_S256x2048_1_0_0_1_n_n.rhsIdx_val_of_single rfl i k

theorem rhs_1 (i : S256x2048.Idx) (k : dot_S256x2048_S2048x2048_S256x2048_1_0_0_1_n_n.contr.Idx) : (dot_S256x2048_S2048x2048_S256x2048_1_0_0_1_n_n.rhsIdx i k 1).val = (i 1).val := by
  unfold DotDims.rhsIdx
  rw [dif_neg (show ¬(1 : Fin S2048x2048.rank) ∈ dot_S256x2048_S2048x2048_S256x2048_1_0_0_1_n_n.rhsBatch by decide),
    dif_pos (show (1 : Fin S2048x2048.rank) ∈ dot_S256x2048_S2048x2048_S256x2048_1_0_0_1_n_n.rhsNonContracting by decide)]
  rfl

/-- The block product into a zero accumulator, at entry (p, q): the sum over the 2048 contracted positions. -/
theorem matmul_entry (l : FVec Ideal S256x2048 .bf16) (r : FVec Ideal S2048x2048 .bf16) (p : Fin 256) (q : Fin 2048) :
    matmul dot_S256x2048_S2048x2048_S256x2048_1_0_0_1_n_n none l r (constant (F := Ideal) S256x2048 .f32 0x00000000#32) (ix2 p q)
      = ∑ κ : Fin 2048, l (ix2 p κ) * r (ix2 κ q) := by
  simp only [matmul]
  rw [Ideal.matmul_constant_zero_apply, ← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k :=
    funext fun a => Fin.ext (by
      match a with
      | ⟨0, _⟩ => exact lhs_0 _ _
      | ⟨1, _⟩ => exact (lhs_1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q :=
    funext fun a => Fin.ext (by
      match a with
      | ⟨0, _⟩ => exact (rhs_0 _ _).trans hk
      | ⟨1, _⟩ => exact rhs_1 _ _)
  rw [el, er]

/-- The reset value: zero everywhere. -/
theorem pay1_entry (y : S256x2048.Idx) : k0_pay1 (F := Ideal) y = 0 := by
  unfold k0_pay1
  simp only [shapeCast_self]
  show Ideal.ofBits .f32 0x00000000#32 = 0
  exact Ideal.ofBits_zero_f32

/-- The accumulator update at entry (p, q). -/
theorem pay2_entry (a : FVec Ideal S256x2048 .f32) (b : FVec Ideal S2048x2048 .f32) (old : FVec Ideal S256x2048 .f32)
    (p : Fin 256) (q : Fin 2048) :
    k0_pay2 (F := Ideal) a b old (ix2 p q) = old (ix2 p q) + ∑ κ : Fin 2048, a (ix2 p κ) * b (ix2 κ q) := by
  unfold k0_pay2
  simp only [shapeCast_self]
  refine (addf_apply _ _ _).trans ?_
  exact congrArg (old (ix2 p q) + ·) (matmul_entry _ _ p q)

/-- A [1, 2048] row broadcast down 256 rows, at entry (p, q): the row's entry q. -/
theorem bcast_row_entry (v : FVec Ideal S1x2048 .f32) (p : Fin 256) (q : Fin 2048) :
    broadcastTo S256x2048 v broadcasts_S1x2048_S256x2048 (ix2 p q) = v (ix2 (0 : Fin 1) q) :=
  broadcastTo_apply v broadcasts_S1x2048_S256x2048 (ix2 p q) (ix2 (0 : Fin 1) q) (fun a => by
    match a with
    | ⟨0, _⟩ => show (0 : Nat) = if (1 : Nat) = 1 then 0 else _; rw [if_pos rfl]
    | ⟨1, _⟩ => show q.val = if (2048 : Nat) = 1 then 0 else q.val; rw [if_neg (by decide)])

/-- The output value at entry (p, q). -/
theorem pay3_entry (acc : FVec Ideal S256x2048 .f32) (bias : FVec Ideal S1x2048 .f32) (p : Fin 256) (q : Fin 2048) :
    k0_pay3 (F := Ideal) acc bias (ix2 p q) = Ideal.tanh (acc (ix2 p q) + bias (ix2 (0 : Fin 1) q)) := by
  unfold k0_pay3
  simp only [shapeCast_self]
  show Ideal.tanh (addf acc (broadcastTo S256x2048 bias broadcasts_S1x2048_S256x2048) (ix2 p q)) = _
  refine congrArg Ideal.tanh ((addf_apply _ _ _).trans ?_)
  exact congrArg (acc (ix2 p q) + ·) (bcast_row_entry bias p q)

end Cert.KernelIdeal.Payload

end
-- ==== Proof.Blocks.lean ====
/-
  Where each window's block sits in its array.  Grid point t stands for the pair (j, k) = (t / 10, t % 10):
  j numbers the 2048-column block of the output, k the 2048-long block of the contracted axis.  At that point
    the left operand's block is rows 0…255, columns 2048 k … 2048 k + 2047 of the [256, 20480] array;
    the right operand's block is rows 2048 k …, columns 2048 j … of the [20480, 8192] array;
    the bias block is columns 2048 j … of the [1, 8192] row;
    the output block is rows 0…255, columns 2048 j … of the [256, 8192] result.
  An element of a block sits at (block index) × (block size) + (its coordinate inside the block) on each axis.
-/
import proofs.«176601_j86509231276655_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]

theorem idx_0 : ∀ t : Fin cfg0.N, win0_0.index t 0 = 0 ∧ win0_0.index t 1 = t.val % 10 :=
  (by decide +kernel : ∀ t : Fin grid0.N, win0_0.index t 0 = 0 ∧ win0_0.index t 1 = t.val % 10)
theorem idx_1 : ∀ t : Fin cfg0.N, win0_1.index t 0 = t.val % 10 ∧ win0_1.index t 1 = t.val / 10 :=
  (by decide +kernel : ∀ t : Fin grid0.N, win0_1.index t 0 = t.val % 10 ∧ win0_1.index t 1 = t.val / 10)
theorem idx_2 : ∀ t : Fin cfg0.N, win0_2.index t 0 = 0 ∧ win0_2.index t 1 = t.val / 10 :=
  (by decide +kernel : ∀ t : Fin grid0.N, win0_2.index t 0 = 0 ∧ win0_2.index t 1 = t.val / 10)
theorem idx_3 : ∀ t : Fin cfg0.N, win0_3.index t 0 = 0 ∧ win0_3.index t 1 = t.val / 10 :=
  (by decide +kernel : ∀ t : Fin grid0.N, win0_3.index t 0 = 0 ∧ win0_3.index t 1 = t.val / 10)

theorem lt_N (t : Fin cfg0.N) : t.val < 40 := lt_of_lt_of_eq t.isLt (show cfg0.N = 40 from N_0)

/-- The left operand's block at point t, entry (p, κ): row p, column 2048 (t % 10) + κ of the array. -/
theorem read_blk0 (c : Dev nD) (A : Buf (Elt F) ((c : Thread nD τ).loc main_v20)) (t : Fin cfg0.N) (p : Fin 256) (κ : Fin 2048) :
    (((cfg0.win 0).blk t).view.read (Elt F) A : Vec F S256x2048 .f32) (ix2 p κ)
      = A (ix2 p (⟨2048 * (t.val % 10) + κ.val, by have := κ.isLt; omega⟩ : Fin 20480)) := by
  rw [View.read_apply]
  refine congrArg A (funext fun a => Fin.ext ?_)
  match a with
  | ⟨0, _⟩ => show win0_0.index t 0 * 256 + 1 * p.val = p.val; rw [(idx_0 t).1]; omega
  | ⟨1, _⟩ => show win0_0.index t 1 * 2048 + 1 * κ.val = 2048 * (t.val % 10) + κ.val; rw [(idx_0 t).2]; omega

/-- The right operand's block at point t, entry (κ, q): row 2048 (t % 10) + κ, column 2048 (t / 10) + q. -/
theorem read_blk1 (c : Dev nD) (A : Buf (Elt F) ((c : Thread nD τ).loc main_v19)) (t : Fin cfg0.N) (κ : Fin 2048) (q : Fin 2048) :
    (((cfg0.win 1).blk t).view.read (Elt F) A : Vec F S2048x2048 .f32) (ix2 κ q)
      = A (ix2 (⟨2048 * (t.val % 10) + κ.val, by have := κ.isLt; omega⟩ : Fin 20480)
              (⟨2048 * (t.val / 10) + q.val, by have := q.isLt; have := lt_N t; omega⟩ : Fin 8192)) := by
  rw [View.read_apply]
  refine congrArg A (funext fun a => Fin.ext ?_)
  match a with
  | ⟨0, _⟩ => show win0_1.index t 0 * 2048 + 1 * κ.val = 2048 * (t.val % 10) + κ.val; rw [(idx_1 t).1]; omega
  | ⟨1, _⟩ => show win0_1.index t 1 * 2048 + 1 * q.val = 2048 * (t.val / 10) + q.val; rw [(idx_1 t).2]; omega

/-- The bias block at point t, entry (0, q): column 2048 (t / 10) + q of the row. -/
theorem read_blk2 (c : Dev nD) (A : Buf (Elt F) ((c : Thread nD τ).loc main_v22)) (t : Fin cfg0.N) (q : Fin 2048) :
    (((cfg0.win 2).blk t).view.read (Elt F) A : Vec F S1x2048 .f32) (ix2 (0 : Fin 1) q)
      = A (ix2 (0 : Fin 1) (⟨2048 * (t.val / 10) + q.val, by have := q.isLt; have := lt_N t; omega⟩ : Fin 8192)) := by
  rw [View.read_apply]
  refine congrArg A (funext fun a => Fin.ext ?_)
  match a with
  | ⟨0, _⟩ => show win0_2.index t 0 * 1 + 1 * 0 = 0; rw [(idx_2 t).1]
  | ⟨1, _⟩ => show win0_2.index t 1 * 2048 + 1 * q.val = 2048 * (t.val / 10) + q.val; rw [(idx_2 t).2]; omega

end Cert.KernelIdeal.Blocks

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.AccSpec.lean ====
/-
  The arithmetic of a contraction accumulated block by block.  The contracted axis of length 20480 is cut into
  ten blocks of 2048; block `b` contributes `∑ κ < 2048, X i (2048 b + κ) · W (2048 b + κ) c`, and the running
  total after block `k` is the sum of the contributions of blocks `0 … k`.  After the last block this is the
  contraction over all 20480 positions (regrouping a sum needs only that addition is commutative and
  associative, which it is on the extended reals), and positions from 20000 on contribute `0 · _ = 0` when the left
  factor vanishes there, so what remains is the contraction over the first 20000 positions.
-/
import Mathlib.Data.EReal.Basic
import Mathlib.Algebra.BigOperators.Fin
import proofs.«176601_j86509231276655_1_alg».proof.Proof.LibBlockSum

noncomputable section

namespace Cert.AccSpec

variable (X W : ℕ → ℕ → EReal)

/-- The contribution of block `b` of the contracted axis to entry `(i, c)`. -/
def blk (i c b : ℕ) : EReal := ∑ κ : Fin 2048, X i (2048 * b + κ.val) * W (2048 * b + κ.val) c

/-- The running total at entry `(i, c)` after blocks `0 … k`. -/
def acc (i c k : ℕ) : EReal := ∑ b ∈ Finset.range (k + 1), blk X W i c b

theorem acc_zero (i c : ℕ) : acc X W i c 0 = blk X W i c 0 := by
  unfold acc
  rw [Finset.sum_range_one]

theorem acc_succ (i c k : ℕ) : acc X W i c (k + 1) = acc X W i c k + blk X W i c (k + 1) := by
  unfold acc
  exact Finset.sum_range_succ _ _

/-- After the tenth block the running total is the contraction over all 20480 positions. -/
theorem acc_nine (i c : ℕ) : acc X W i c 9 = ∑ r : Fin 20480, X i r.val * W r.val c := by
  unfold acc blk
  rw [Finset.sum_range]
  exact Cert.Lib.sum_blocks_of_eq (B := 10) (R := 2048) (N := 20480) rfl
    (fun r : Fin 20480 => X i r.val * W r.val c)
    (fun b κ => ⟨2048 * b.val + κ.val, by have := b.isLt; have := κ.isLt; omega⟩)
    (fun b κ => by show 2048 * b.val + κ.val = b.val * 2048 + κ.val; omega)

/-- Positions from 20000 on contribute nothing when the left factor is zero there. -/
theorem sum_drop_tail (i c : ℕ) (hX : ∀ r, 20000 ≤ r → X i r = 0) :
    ∑ r : Fin 20480, X i r.val * W r.val c = ∑ r : Fin 20000, X i r.val * W r.val c := by
  show ∑ r : Fin (20000 + 480), X i r.val * W r.val c = _
  rw [Fin.sum_univ_add]
  have h2 : ∑ r : Fin 480, X i (Fin.natAdd 20000 r).val * W (Fin.natAdd 20000 r).val c = 0 :=
    Finset.sum_eq_zero fun r _ => by
      rw [hX _ (by show 20000 ≤ 20000 + r.val; omega), zero_mul]
  rw [h2, add_zero]
  rfl

/-- So the total after the last block is the contraction over the first 20000 positions. -/
theorem acc_nine_eq (i c : ℕ) (hX : ∀ r, 20000 ≤ r → X i r = 0) :
    acc X W i c 9 = ∑ r : Fin 20000, X i r.val * W r.val c :=
  (acc_nine X W i c).trans (sum_drop_tail X W i c hX)

end Cert.AccSpec

end
-- ==== Proof.Accum.lean ====
/-
  The accumulator over the grid.  Write X for the [256, 20480] left array and W for the [20480, 8192] right array
  as the region finds them, and B for the [1, 8192] bias row.  After the body has run at grid point n = 10 j + k,
  the accumulator's entry (p, q) is the sum of the contributions of blocks 0 … k of the contracted axis to entry
  (p, 2048 j + q) of the product X · W: at k = 0 it is 0 + (block 0's contribution), and each later point adds its
  own block's contribution to what the point before left (induction on the point).  At the points with k = 9 the
  output's staging buffer receives tanh (that total + B (0, 2048 j + q)).
-/
import proofs.«176601_j86509231276655_1_alg».proof.Proof.Steps
import proofs.«176601_j86509231276655_1_alg».proof.Proof.Payload
import proofs.«176601_j86509231276655_1_alg».proof.Proof.Blocks
import proofs.«176601_j86509231276655_1_alg».proof.Proof.AccSpec

noncomputable section

open Idealize.ShloMosaic Idealize.ShloMosaic.TcCoe Idealize.SL.Sem

namespace Cert.KernelIdeal.Accum

open Cert.KernelIdeal Cert.KernelIdeal.Gen Idealize.ShloMosaic.ValueIdx Cert.AccSpec

/-- An [A, B] array of extended reals read at natural-number coordinates (0 outside the array). -/
def nat2 {A B : ℕ} (f : (⟨2, ![A, B]⟩ : Shape).Idx → EReal) (a b : ℕ) : EReal :=
  if h : a < A ∧ b < B then f (ix2 ⟨a, h.1⟩ ⟨b, h.2⟩) else 0

theorem nat2_of_lt {A B : ℕ} (f : (⟨2, ![A, B]⟩ : Shape).Idx → EReal) {a b : ℕ} (ha : a < A) (hb : b < B) :
    nat2 f a b = f (ix2 ⟨a, ha⟩ ⟨b, hb⟩) := dif_pos ⟨ha, hb⟩

variable (m : (ℓ : Loc nD τ sig) → Buf (Elt Ideal) ℓ)

/-- The left array, the right array and the bias row as the region finds them, at natural-number coordinates. -/
def Xn (c : Dev nD) (a b : ℕ) : EReal := nat2 (A := 256) (B := 20480) (V m c main_v20) a b
def Wn (c : Dev nD) (a b : ℕ) : EReal := nat2 (A := 20480) (B := 8192) (V m c main_v19) a b
def Bn (c : Dev nD) (b : ℕ) : EReal := nat2 (A := 1) (B := 8192) (V m c main_v22) 0 b

theorem iblk0_entry (c : Dev nD) (t : Fin cfg0.N) (p : Fin 256) (κ : Fin 2048) :
    (iblk m c 0 t : FVec Ideal S256x2048 .f32) (ix2 p κ) = Xn m c p.val (2048 * (t.val % 10) + κ.val) := by
  unfold iblk Xn
  rw [nat2_of_lt _ p.isLt (by have := κ.isLt; omega)]
  exact Blocks.read_blk0 c (V m c (Pipeline.arrRef spec0 0)) t p κ

theorem iblk1_entry (c : Dev nD) (t : Fin cfg0.N) (κ : Fin 2048) (q : Fin 2048) :
    (iblk m c 1 t : FVec Ideal S2048x2048 .f32) (ix2 κ q)
      = Wn m c (2048 * (t.val % 10) + κ.val) (2048 * (t.val / 10) + q.val) := by
  unfold iblk Wn
  rw [nat2_of_lt _ (by have := κ.isLt; omega) (by have := q.isLt; have := Blocks.lt_N t; omega)]
  exact Blocks.read_blk1 c (V m c (Pipeline.arrRef spec0 1)) t κ q

theorem iblk2_entry (c : Dev nD) (t : Fin cfg0.N) (q : Fin 2048) :
    (iblk m c 2 t : FVec Ideal S1x2048 .f32) (ix2 (0 : Fin 1) q) = Bn m c (2048 * (t.val / 10) + q.val) := by
  unfold iblk Bn
  rw [nat2_of_lt _ Nat.one_pos (by have := q.isLt; have := Blocks.lt_N t; omega)]
  exact Blocks.read_blk2 c (V m c (Pipeline.arrRef spec0 2)) t q

/-- One accumulator update at entry (p, q), when the two loaded blocks are block kk of the contracted axis of X's
    row p and of W's column cc. -/
theorem update_entry (a : FVec Ideal S256x2048 .f32) (b : FVec Ideal S2048x2048 .f32) (old : FVec Ideal S256x2048 .f32)
    (X W : ℕ → ℕ → EReal) (p : Fin 256) (q : Fin 2048) (cc kk : ℕ)
    (ha : ∀ κ : Fin 2048, a (ix2 p κ) = X p.val (2048 * kk + κ.val))
    (hb : ∀ κ : Fin 2048, b (ix2 κ q) = W (2048 * kk + κ.val) cc) :
    k0_pay2 (F := Ideal) a b old (ix2 p q) = old (ix2 p q) + blk X W p.val cc kk := by
  refine (Payload.pay2_entry a b old p q).trans ?_
  unfold blk
  exact congrArg (old (ix2 p q) + ·) (Finset.sum_congr rfl fun κ _ => by rw [ha κ, hb κ])

/-- THE INVARIANT: after point n the accumulator's entry (p, q) is the running total of blocks 0 … n % 10. -/
theorem acc_eq (c : Dev nD) : ∀ (n : ℕ) (h : n < cfg0.N) (p : Fin 256) (q : Fin 2048),
    ((outsAt0 m c n h).2 : FVec Ideal S256x2048 .f32) (ix2 p q)
      = acc (Xn m c) (Wn m c) p.val (2048 * (n / 10) + q.val) (n % 10) := by
  intro n
  induction n with
  | zero =>
    intro h p q
    have e := Steps.acc_first m c ⟨0, h⟩ (Nat.zero_mod 10) (by show ¬0 % 10 = 9; decide)
    refine (congrFun e (ix2 p q)).trans ?_
    refine (update_entry (iblk m c 0 ⟨0, h⟩) (iblk m c 1 ⟨0, h⟩) (k0_pay1 (F := Ideal)) (Xn m c) (Wn m c) p q
      (2048 * (0 / 10) + q.val) (0 % 10) (fun κ => iblk0_entry m c ⟨0, h⟩ p κ) (fun κ => iblk1_entry m c ⟨0, h⟩ κ q)).trans ?_
    rw [Payload.pay1_entry, zero_add, Nat.zero_mod, acc_zero]
  | succ n ih =>
    intro h p q
    have hN : n + 1 < 40 := lt_of_lt_of_eq h (show cfg0.N = 40 from N_0)
    by_cases h0 : (n + 1) % 10 = 0
    · have h1 : ¬(n + 1) % 10 = 9 := by omega
      have e := Steps.acc_first m c ⟨n + 1, h⟩ h0 h1
      refine (congrFun e (ix2 p q)).trans ?_
      refine (update_entry (iblk m c 0 ⟨n + 1, h⟩) (iblk m c 1 ⟨n + 1, h⟩) (k0_pay1 (F := Ideal)) (Xn m c) (Wn m c) p q
        (2048 * ((n + 1) / 10) + q.val) ((n + 1) % 10) (fun κ => iblk0_entry m c ⟨n + 1, h⟩ p κ)
        (fun κ => iblk1_entry m c ⟨n + 1, h⟩ κ q)).trans ?_
      rw [Payload.pay1_entry, zero_add, h0, acc_zero]
    · have hprev := ih (Nat.lt_of_succ_lt h) p q
      have e1 : (n + 1) / 10 = n / 10 := by omega
      have e2 : (n + 1) % 10 = n % 10 + 1 := by omega
      have e : ((outsAt0 m c (n + 1) h).2 : FVec Ideal S256x2048 .f32)
          = k0_pay2 (iblk m c 0 ⟨n + 1, h⟩) (iblk m c 1 ⟨n + 1, h⟩) (outsAt0 m c n (Nat.lt_of_succ_lt h)).2 := by
        by_cases h1 : (n + 1) % 10 = 9
        · exact Steps.acc_last m c ⟨n + 1, h⟩ h0 h1
        · exact Steps.acc_middle m c ⟨n + 1, h⟩ h0 h1
      refine (congrFun e (ix2 p q)).trans ?_
      refine (update_entry (iblk m c 0 ⟨n + 1, h⟩) (iblk m c 1 ⟨n + 1, h⟩) (outsAt0 m c n (Nat.lt_of_succ_lt h)).2
        (Xn m c) (Wn m c) p q (2048 * ((n + 1) / 10) + q.val) ((n + 1) % 10) (fun κ => iblk0_entry m c ⟨n + 1, h⟩ p κ)
        (fun κ => iblk1_entry m c ⟨n + 1, h⟩ κ q)).trans ?_
      rw [hprev, e1, e2, acc_succ]

/-- What the output's staging buffer holds after a pass-ending point t = 10 j + 9, at entry (p, q). -/
theorem out_eq (c : Dev nD) (t : Fin cfg0.N) (h1 : t.val % 10 = 9) (p : Fin 256) (q : Fin 2048) :
    ((outsAt0 m c t.val t.isLt).1 : FVec Ideal S256x2048 .f32) (ix2 p q)
      = Ideal.tanh (acc (Xn m c) (Wn m c) p.val (2048 * (t.val / 10) + q.val) 9 + Bn m c (2048 * (t.val / 10) + q.val)) := by
  have h0 : ¬t.val % 10 = 0 := by omega
  refine (congrFun (Steps.out_last m c t h0 h1) (ix2 p q)).trans ?_
  refine (Payload.pay3_entry _ (iblk m c 2 t) p q).trans ?_
  have ea := (congrFun (Steps.acc_last m c t h0 h1) (ix2 p q)).symm.trans (acc_eq m c t.val t.isLt p q)
  rw [ea, h1, iblk2_entry]

end Cert.KernelIdeal.Accum

end
-- ==== Proof.Final.lean ====
/-
  The kernel's result.  The output window is written back only at the points that end a pass over the contracted
  axis, t = 10 j + 9, and the block written there is columns 2048 j … 2048 j + 2047 of the [256, 8192] result; these
  four blocks cover the result, so after the run its entry (r, s) is
      tanh ( (total of blocks 0 … 9 of the contraction at (r, s)) + bias row (s) ),
  and the program's own result is the slice of the first 8000 columns of that array, which the host line after the
  region takes.
-/
import proofs.«176601_j86509231276655_1_alg».proof.Proof.Accum
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Final

open Cert.KernelIdeal Cert.KernelIdeal.Gen Idealize.ShloMosaic.ValueIdx Cert.AccSpec

variable (m : (ℓ : Loc nD τ sig) → Buf (Elt Ideal) ℓ) (ρ : Dev nD → PrngReg)

/-- The [256, 8192] result array after the run, entry by entry. -/
def G (c : Dev nD) : S256x8192.Idx → EReal := fun i =>
  Ideal.tanh (acc (Accum.Xn m c) (Accum.Wn m c) (i 0).val (i 1).val 9 + Accum.Bn m c (i 1).val)

theorem G_apply (c : Dev nD) (i : S256x8192.Idx) :
    G m c i = Ideal.tanh (acc (Accum.Xn m c) (Accum.Wn m c) (i 0).val (i 1).val 9 + Accum.Bn m c (i 1).val) := rfl

/-- What a pass-ending point writes back is its block of `G`. -/
theorem flushed_eq (c : Dev nD) (t : Fin cfg0.N) (hf : (cfg0.win 3).flush t = true) :
    (dats m 0 c).flushed 3 t = ((cfg0.win 3).blk t).view.read (Elt Ideal) (G m c) := by
  have h9 : t.val % 10 = 9 := (flush0_3 t).mp hf
  show (cfg0.win 3).cut (grid0.coords t) ((dats m 0 c).after 3 t) = _
  rw [after0_3]
  funext j
  obtain ⟨p, q, rfl⟩ : ∃ (p : Fin 256) (q : Fin 2048), j = ix2 p q := ⟨j 0, j 1, eq_ix2 j⟩
  rw [View.read_apply]
  show ((outsAt0 m c t.val t.isLt).1 : FVec Ideal S256x2048 .f32) (ix2 p q) = G m c (((cfg0.win 3).blk t).view.emb (ix2 p q))
  refine (Accum.out_eq m c t h9 p q).trans ?_
  have e0 : ((((cfg0.win 3).blk t).view.emb (ix2 p q)) 0).val = p.val := by
    show win0_3.index t 0 * 256 + 1 * p.val = p.val
    rw [(Blocks.idx_3 t).1]; omega
  have e1 : ((((cfg0.win 3).blk t).view.emb (ix2 p q)) 1).val = 2048 * (t.val / 10) + q.val := by
    show win0_3.index t 1 * 2048 + 1 * q.val = 2048 * (t.val / 10) + q.val
    rw [(Blocks.idx_3 t).2]; omega
  rw [G_apply, e0, e1]

/-- Every entry of the result lies in the block some pass-ending point writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hi0 : (i 0 : Nat) < 256 := (i 0).isLt
  have hi1 : (i 1 : Nat) < 8192 := (i 1).isLt
  have hN : cfg0.N = 40 := N_0
  obtain ⟨t, ht⟩ : ∃ t : Fin cfg0.N, t.val = 10 * ((i 1 : Nat) / 2048) + 9 := ⟨⟨10 * ((i 1 : Nat) / 2048) + 9, by rw [hN]; omega⟩, rfl⟩
  refine ⟨t, (flush0_3 t).mpr (by omega), ?_⟩
  show i ∈ ((View.whole main_v23).slice (win0_3.rect t)).set
  rw [View.set_slice_whole, Rect.mem_set_unit]
  intro a
  match a with
  | ⟨0, _⟩ =>
    show win0_3.index t 0 * 256 ≤ (i 0 : Nat) ∧ (i 0 : Nat) < win0_3.index t 0 * 256 + 256
    rw [(Blocks.idx_3 t).1]; omega
  | ⟨1, _⟩ =>
    show win0_3.index t 1 * 2048 ≤ (i 1 : Nat) ∧ (i 1 : Nat) < win0_3.index t 1 * 2048 + 2048
    rw [(Blocks.idx_3 t).2]; omega

/-- So the result array ends holding `G`. -/
theorem final (c : Dev nD) : (dats m 0 c).arrAt 3 cfg0.N = G m c :=
  (dats m 0 c).arrAt_eq_of_cover 3 (G m c) (flushed_eq m c) (cover c)

/-- The program's result: the first 8000 columns of the result array. -/
def result (c : Dev nD) : S256x8000.Idx → EReal :=
  extractStridedSlice S256x8000 ![0, 0] (G m c) slices_S256x8192_S256x8000_0_0

theorem result_entry (c : Dev nD) (a : Fin 256) (b : Fin 8000) :
    result m c (ix2 a b) = G m c (ix2 a (⟨b.val, by have := b.isLt; omega⟩ : Fin 8192)) :=
  extractStridedSlice_apply (s := S256x8192) (t := S256x8000) ![0, 0] (G m c) slices_S256x8192_S256x8000_0_0 (ix2 a b)
    (ix2 a (⟨b.val, by have := b.isLt; omega⟩ : Fin 8192)) (fun d => by
      match d with
      | ⟨0, _⟩ => show a.val = 0 + a.val; omega
      | ⟨1, _⟩ => show b.val = 0 + b.val; omega)

/-- The host line after the region takes that slice. -/
theorem tail_eq (c : Dev nD) :
    Pipeline.afterTail₀ cfgs (dats m) 0 (V0 m) [hostOps1] c main_v24 = result m c := by
  unfold Pipeline.afterTail₀ result
  show StableHlo.after hostOps1 _ (Proc.devRef .tc main_v24) = _
  after_results
  have e : Pipeline.withArrays (cfgs 0).spec c (V0 m c) (fun w => (dats m 0 c).arrAt w (cfgs 0).N) (Proc.devRef .tc main_v23) = G m c :=
    (Pipeline.withArrays_arr spec0 launch0.win.arr_inj c _ _ 3).trans (final m c)
  rw [e]

/-- The kernel's run, read: the program's result is that slice, and the arguments end unchanged. -/
theorem run : θ_run defs (onTc (τ := τ) (main (F := Ideal))) ⟨m, fun _ => 0, ρ⟩ fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v24 (Pipeline.mem_restRefs_of main_v24 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.HostHead.lean ====
/-
  What the region finds in its three arrays.  The host lines before the region scatter-add the values into a
  zero [20000, 8000] matrix at the given index pairs (the dense weight matrix; both programs build it by the same
  operations, so it is carried as ONE function of the two arguments and never opened), pad it with zeros to
  [20480, 8192], pad the input with zeros to [256, 20480], and pad the bias with zeros to 8192 entries, laid out as
  a [1, 8192] row.  The padding value is the integer 0 converted to a float: the real number 0.
  Read at an entry: inside the original extent a padded array is the original; on the padded part of the
  contracted axis the left array is 0.
-/
import proofs.«176601_j86509231276655_1_alg».proof.Proof.Accum
import Idealize.ShloMosaic.Lib.StableHlo.Run
import Idealize.ShloMosaic.Lib.KernelVsHost
import Idealize.ShloMosaic.Lib.ValueLayout

noncomputable section

open Idealize.ShloMosaic Idealize.ShloMosaic.TcCoe Idealize.SL.Sem Idealize.ShloMosaic.StableHlo

namespace Cert.KernelIdeal.HostHead

open Cert.KernelIdeal Cert.KernelIdeal.Gen Idealize.ShloMosaic.ValueIdx

section AnyFormat

variable {F : FTy → Type} [FloatOps F]
variable (m : (ℓ : Loc nD τ sig) → Buf (Elt F) ℓ)

/-- The dense weight matrix: the values scatter-added into zeros at the index pairs (a negative index wrapped
    once by its axis length), as the host lines compute it. -/
def weight (x1 : (⟨S1600000x2, .i32⟩ : BufTy).Contents (Elt F)) (x2 : (⟨S1600000, .f32⟩ : BufTy).Contents (Elt F)) :
    (⟨S20000x8000, .f32⟩ : BufTy).Contents (Elt F) :=
  (Host.scatterAdd scatter_S20000x8000_S1600000x2_S1600000_n_01_01_1 (broadcastInDim S20000x8000 ![] bcast_S_S20000x8000 (constant S_ .f32 0x00000000#32)) (concatenate S1600000x2 1 [⟨S1600000x1, (broadcastInDim S1600000x1 ![0] bcast_S1600000_S1600000x1_0 (select (cmpi .slt (shapeCast _ (extractStridedSlice S1600000x1 ![0, 0] x1 slices_S1600000x2_S1600000x1_0_0) shapeCasts_S1600000x1_S1600000) (broadcastInDim S1600000 ![] bcast_S_S1600000 (constantI S_ 32 0#32))) (addi (shapeCast _ (extractStridedSlice S1600000x1 ![0, 0] x1 slices_S1600000x2_S1600000x1_0_0) shapeCasts_S1600000x1_S1600000) (broadcastInDim S1600000 ![] bcast_S_S1600000 (constantI S_ 32 20000#32))) (shapeCast _ (extractStridedSlice S1600000x1 ![0, 0] x1 slices_S1600000x2_S1600000x1_0_0) shapeCasts_S1600000x1_S1600000)))⟩, ⟨S1600000x1, (broadcastInDim S1600000x1 ![0] bcast_S1600000_S1600000x1_0 (select (cmpi .slt (shapeCast _ (extractStridedSlice S1600000x1 ![0, 1] x1 slices_S1600000x2_S1600000x1_0_1) shapeCasts_S1600000x1_S1600000) (broadcastInDim S1600000 ![] bcast_S_S1600000 (constantI S_ 32 0#32))) (addi (shapeCast _ (extractStridedSlice S1600000x1 ![0, 1] x1 slices_S1600000x2_S1600000x1_0_1) shapeCasts_S1600000x1_S1600000) (broadcastInDim S1600000 ![] bcast_S_S1600000 (constantI S_ 32 8000#32))) (shapeCast _ (extractStridedSlice S1600000x1 ![0, 1] x1 slices_S1600000x2_S1600000x1_0_1) shapeCasts_S1600000x1_S1600000)))⟩] concatenates_S1600000x1_S1600000x1_S1600000x2_d1) x2)

/-- The padding value: the integer zero converted. -/
def padv : (⟨S_, .f32⟩ : BufTy).Contents (Elt F) := sitofp .f32 (constantI S_ 32 0#32)

theorem V_left (c : Dev nD) :
    V m c main_v20 = pad S256x20480 ![0, 0] ![0, 480] ![0, 0] (m ((c : Thread nD τ).loc main_arg0)) (padv (F := F))
      pads_S256x20000_S256x20480_000_04800 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

set_option maxHeartbeats 2000000 in
theorem V_right (c : Dev nD) :
    V m c main_v19 = pad S20480x8192 ![0, 0] ![480, 192] ![0, 0]
      (weight (m ((c : Thread nD τ).loc main_arg1)) (m ((c : Thread nD τ).loc main_arg2))) (padv (F := F))
      pads_S20000x8000_S20480x8192_04800_01920 h_S_ := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

theorem V_bias (c : Dev nD) :
    V m c main_v22 = shapeCast S1x8192 (pad S8192 ![0] ![192] ![0] (m ((c : Thread nD τ).loc main_arg3)) (padv (F := F))
      pads_S8000_S8192_01920 h_S_) shapeCasts_S8192_S1x8192 := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

end AnyFormat

/-! ### Entries, over the extended reals -/

variable (m : (ℓ : Loc nD τ sig) → Buf (Elt Ideal) ℓ)

theorem padv_zero (h : 0 < S_.numel) : padv (F := Ideal) (Shape.Idx.first h) = 0 := by
  show (((0#32 : BitVec 32).toInt : ℝ) : EReal) = 0
  simp

/-- The left array inside the original extent is the input. -/
theorem Xn_inside (c : Dev nD) {a r : ℕ} (ha : a < 256) (hr : r < 20000) :
    Accum.Xn m c a r = m ((c : Thread nD τ).loc main_arg0) (ix2 (⟨a, ha⟩ : Fin 256) (⟨r, hr⟩ : Fin 20000)) := by
  unfold Accum.Xn
  rw [Accum.nat2_of_lt _ ha (by omega : r < 20480), V_left]
  exact pad_apply_of_inside (s := S256x20000) (t := S256x20480) ![0, 0] ![0, 480] ![0, 0]
    (m ((c : Thread nD τ).loc main_arg0)) (padv (F := Ideal)) pads_S256x20000_S256x20480_000_04800 h_S_
    (ix2 (⟨a, ha⟩ : Fin 256) (⟨r, by omega⟩ : Fin 20480)) (ix2 (⟨a, ha⟩ : Fin 256) (⟨r, hr⟩ : Fin 20000)) (fun b => by
      match b with
      | ⟨0, _⟩ => show a = 0 + a * (0 + 1); omega
      | ⟨1, _⟩ => show r = 0 + r * (0 + 1); omega)

/-- The left array on the padded part of the contracted axis (and beyond) is zero. -/
theorem Xn_tail (c : Dev nD) (a r : ℕ) (hr : 20000 ≤ r) : Accum.Xn m c a r = 0 := by
  unfold Accum.Xn Accum.nat2
  split
  · rename_i h
    rw [V_left]
    refine (pad_apply_of_not_inside (s := S256x20000) (t := S256x20480) ![0, 0] ![0, 480] ![0, 0]
      (m ((c : Thread nD τ).loc main_arg0)) (padv (F := Ideal)) pads_S256x20000_S256x20480_000_04800 h_S_
      (ix2 (⟨a, h.1⟩ : Fin 256) (⟨r, h.2⟩ : Fin 20480)) (1 : Fin 2) (fun hin => ?_)).trans (padv_zero h_S_)
    have h3 : (r - 0) / (0 + 1) < 20000 := hin.2.2
    omega
  · rfl

/-- The right array inside the original extent is the weight matrix. -/
theorem Wn_inside (c : Dev nD) {r b : ℕ} (hr : r < 20000) (hb : b < 8000) :
    Accum.Wn m c r b = weight (m ((c : Thread nD τ).loc main_arg1)) (m ((c : Thread nD τ).loc main_arg2))
      (ix2 (⟨r, hr⟩ : Fin 20000) (⟨b, hb⟩ : Fin 8000)) := by
  unfold Accum.Wn
  rw [Accum.nat2_of_lt _ (by omega : r < 20480) (by omega : b < 8192), V_right]
  exact pad_apply_of_inside (s := S20000x8000) (t := S20480x8192) ![0, 0] ![480, 192] ![0, 0]
    (weight (m ((c : Thread nD τ).loc main_arg1)) (m ((c : Thread nD τ).loc main_arg2))) (padv (F := Ideal))
    pads_S20000x8000_S20480x8192_04800_01920 h_S_
    (ix2 (⟨r, by omega⟩ : Fin 20480) (⟨b, by omega⟩ : Fin 8192)) (ix2 (⟨r, hr⟩ : Fin 20000) (⟨b, hb⟩ : Fin 8000)) (fun d => by
      match d with
      | ⟨0, _⟩ => show r = 0 + r * (0 + 1); omega
      | ⟨1, _⟩ => show b = 0 + b * (0 + 1); omega)

/-- The bias row inside the original extent is the bias. -/
theorem Bn_inside (c : Dev nD) {b : ℕ} (hb : b < 8000) :
    Accum.Bn m c b = m ((c : Thread nD τ).loc main_arg3) (ix1 (⟨b, hb⟩ : Fin 8000)) := by
  unfold Accum.Bn
  rw [Accum.nat2_of_lt _ Nat.one_pos (by omega : b < 8192), V_bias]
  refine (shapeCast_apply (s := S8192) (t := S1x8192)
    (pad S8192 ![0] ![192] ![0] (m ((c : Thread nD τ).loc main_arg3)) (padv (F := Ideal)) pads_S8000_S8192_01920 h_S_)
    shapeCasts_S8192_S1x8192 (ix2 (⟨0, Nat.one_pos⟩ : Fin 1) (⟨b, by omega⟩ : Fin 8192)) (ix1 (⟨b, by omega⟩ : Fin 8192)) ?_).trans ?_
  · rw [Shape.rowMajor_val_one, Shape.rowMajor_val_two]
    show b = 0 * 8192 + b
    omega
  · exact pad_apply_of_inside (s := S8000) (t := S8192) ![0] ![192] ![0] (m ((c : Thread nD τ).loc main_arg3)) (padv (F := Ideal))
      pads_S8000_S8192_01920 h_S_ (ix1 (⟨b, by omega⟩ : Fin 8192)) (ix1 (⟨b, hb⟩ : Fin 8000)) (fun d => by
      match d with
      | ⟨0, _⟩ => show b = 0 + b * (0 + 1); omega)

end Cert.KernelIdeal.HostHead

end
-- ==== Proof.Bridge.lean ====
/-
  The two programs compute one function.  At entry (a, b) of the [256, 8000] result, over the extended reals:
    the kernel's entry is tanh ( total of the ten blocks at (a, b) + bias row (b) ), and the total is the contraction
    over all 20480 positions of the padded arrays; the positions from 20000 on contribute 0 · _ = 0 because the
    padded input is 0 there, and below 20000 (and for columns below 8000) the padded arrays are the input, the
    weight matrix and the bias, so the entry is  tanh ( ∑ r < 20000, x (a, r) · w (r, b) + bias (b) );
    the reference's entry is the same expression: its dot_general is that sum, its two broadcasts read bias (b),
    and its tanh is the same function.
  The weight matrix w is built by both programs with the same host operations from the same two arguments.
-/
import proofs.«176601_j86509231276655_1_alg».proof.Proof.Final
import proofs.«176601_j86509231276655_1_alg».proof.Proof.HostHead
import proofs.«176601_j86509231276655_1_alg».proof.Proof.Gen.ReferenceIdeal.Read

noncomputable section

open Idealize.ShloMosaic Idealize.ShloMosaic.TcCoe Idealize.SL.Sem

namespace Cert.Bridge

open Idealize.ShloMosaic.ValueIdx Cert.AccSpec
open Cert.KernelIdeal (nD τ sig main_arg0 main_arg1 main_arg2 main_arg3)

variable (m : (ℓ : Loc nD τ sig) → Buf (Elt Ideal) ℓ)

/-- The padded left array at (a, r), r < 20000, is the input there. -/
theorem Xn_fin (c : Dev nD) (a : Fin 256) (r : Fin 20000) :
    Cert.KernelIdeal.Accum.Xn m c a.val r.val = m ((c : Thread nD τ).loc main_arg0) (ix2 a r) :=
  Cert.KernelIdeal.HostHead.Xn_inside m c a.isLt r.isLt

/-- The padded right array at (r, b), r < 20000 and b < 8000, is the weight matrix there. -/
theorem Wn_fin (c : Dev nD) (r : Fin 20000) (b : Fin 8000) :
    Cert.KernelIdeal.Accum.Wn m c r.val b.val
      = Cert.KernelIdeal.HostHead.weight (m ((c : Thread nD τ).loc main_arg1)) (m ((c : Thread nD τ).loc main_arg2)) (ix2 r b) :=
  Cert.KernelIdeal.HostHead.Wn_inside m c r.isLt b.isLt

/-- The kernel's result at entry (a, b), the input, the weight matrix and the bias named. -/
theorem kernel_entry (c : Dev nD) (a : Fin 256) (b : Fin 8000)
    (x0 : (⟨Cert.KernelIdeal.S256x20000, .f32⟩ : BufTy).Contents (Elt Ideal))
    (w : (⟨Cert.KernelIdeal.S20000x8000, .f32⟩ : BufTy).Contents (Elt Ideal))
    (x3 : (⟨Cert.KernelIdeal.S8000, .f32⟩ : BufTy).Contents (Elt Ideal))
    (h0 : m ((c : Thread nD τ).loc main_arg0) = x0)
    (hw : Cert.KernelIdeal.HostHead.weight (m ((c : Thread nD τ).loc main_arg1)) (m ((c : Thread nD τ).loc main_arg2)) = w)
    (h3 : m ((c : Thread nD τ).loc main_arg3) = x3) :
    Cert.KernelIdeal.Final.result m c (ix2 a b)
      = Ideal.tanh ((∑ r : Fin 20000, x0 (ix2 a r) * w (ix2 r b)) + x3 (ix1 b)) := by
  subst h0 hw h3
  refine (Cert.KernelIdeal.Final.result_entry m c a b).trans ?_
  rw [Cert.KernelIdeal.Final.G_apply]
  show Ideal.tanh (acc (Cert.KernelIdeal.Accum.Xn m c) (Cert.KernelIdeal.Accum.Wn m c) a.val b.val 9
    + Cert.KernelIdeal.Accum.Bn m c b.val) = _
  rw [acc_nine_eq _ _ _ _ (fun r hr => Cert.KernelIdeal.HostHead.Xn_tail m c a.val r hr),
    Cert.KernelIdeal.HostHead.Bn_inside m c b.isLt]
  simp only [Xn_fin, Wn_fin]

/-- The weight matrix of the reference's stages is the kernel program's: the same operations on the same arguments. -/
theorem weight_eq (x1 : (⟨Cert.KernelIdeal.S1600000x2, .i32⟩ : BufTy).Contents (Elt Ideal))
    (x2 : (⟨Cert.KernelIdeal.S1600000, .f32⟩ : BufTy).Contents (Elt Ideal)) :
    Cert.ReferenceIdeal.Read.val_main_v18 (F := Ideal) x1 x2 = Cert.KernelIdeal.HostHead.weight (F := Ideal) x1 x2 := rfl

/-- The reference's result at entry (a, b). -/
theorem reference_entry (x0 : (⟨Cert.ReferenceIdeal.S256x20000, .f32⟩ : BufTy).Contents (Elt Ideal))
    (x1 : (⟨Cert.ReferenceIdeal.S1600000x2, .i32⟩ : BufTy).Contents (Elt Ideal))
    (x2 : (⟨Cert.ReferenceIdeal.S1600000, .f32⟩ : BufTy).Contents (Elt Ideal))
    (x3 : (⟨Cert.ReferenceIdeal.S8000, .f32⟩ : BufTy).Contents (Elt Ideal)) (a : Fin 256) (b : Fin 8000) :
    Cert.ReferenceIdeal.Read.val_main_v23 (F := Ideal) x0 x1 x2 x3 (ix2 a b)
      = Ideal.tanh ((∑ r : Fin 20000, (x0 (ix2 a r) : EReal) * (Cert.ReferenceIdeal.Read.val_main_v18 (F := Ideal) x1 x2 (ix2 r b) : EReal))
          + (x3 (ix1 b) : EReal)) := by
  have el : ∀ k : Fin 20000, Cert.ReferenceIdeal.Read.lidx_main_v19 (ix2 a b) k = ix2 a k := fun k =>
    funext fun d => Fin.ext (by match d with | ⟨0, _⟩ => rfl | ⟨1, _⟩ => rfl)
  have er : ∀ k : Fin 20000, Cert.ReferenceIdeal.Read.ridx_main_v19 (ix2 a b) k = ix2 k b := fun k =>
    funext fun d => Fin.ext (by match d with | ⟨0, _⟩ => rfl | ⟨1, _⟩ => rfl)
  have eb : Cert.ReferenceIdeal.Read.idx_main_v20 (Cert.ReferenceIdeal.Read.idx_main_v21 (ix2 a b)) = ix1 b :=
    funext fun d => Fin.ext (by match d with | ⟨0, _⟩ => rfl)
  rw [Cert.ReferenceIdeal.Read.val_main_v23_apply, Cert.ReferenceIdeal.Read.val_main_v22_apply,
    Cert.ReferenceIdeal.Read.val_main_v19_apply, Cert.ReferenceIdeal.Read.val_main_v21_apply,
    Cert.ReferenceIdeal.Read.val_main_v20_apply, eb]
  simp only [el, er, Ideal.hostUnary_tanh_def, Ideal.addf_def]

/-- The reference's result is the kernel's, as whole arrays. -/
theorem result_eq (c : Dev nD) :
    Cert.ReferenceIdeal.Read.val_main_v23 (F := Ideal) (m ((c : Thread nD τ).loc main_arg0)) (m ((c : Thread nD τ).loc main_arg1))
        (m ((c : Thread nD τ).loc main_arg2)) (m ((c : Thread nD τ).loc main_arg3))
      = Cert.KernelIdeal.Final.result m c := by
  funext i
  obtain ⟨a, b, rfl⟩ : ∃ (a : Fin 256) (b : Fin 8000), i = ix2 a b := ⟨i 0, i 1, eq_ix2 i⟩
  refine (reference_entry _ _ _ _ a b).trans ?_
  rw [weight_eq]
  exact (kernel_entry m c a b _ _ _ rfl rfl rfl).symm

end Cert.Bridge

end
-- ==== Proof.lean ====
/-
  The kernel computes  tanh (inputs · W + bias)  for the dense [20000, 8000] matrix W obtained by scatter-adding
  1 600 000 values at given index pairs into zeros, and so does the reference.  Both programs build W with the same
  host operations.  The kernel then pads the contracted axis from 20000 to 20480 and the output axis from 8000 to
  8192 with zeros, and a grid of 4 × 10 points accumulates, for each of four 2048-column blocks of the output, the
  ten [256, 2048] · [2048, 2048] block products of a pass over the contracted axis into a scratch accumulator that
  is reset at the start of the pass; the last point of the pass adds the bias row, applies tanh and writes the
  block out; the host finally slices the first 8000 columns.

  Read over the extended reals (a change of float format is the identity, every product and sum exact):
    * after the point (j, k) the accumulator's entry (p, q) is the sum of the contributions of blocks 0 … k of the
      contracted axis to entry (p, 2048 j + q) of the padded product — by induction on the grid point;
    * ten blocks of 2048 regroup into one sum over 20480 positions (addition on the extended reals is commutative
      and associative; nothing else is used, so no finiteness of the inputs is needed);
    * the positions 20000 … 20479 contribute 0 · _ = 0, because the padded input is the real 0 there;
    * below 20000, and for columns below 8000, the padded arrays are the input, W and the bias;
  so the kernel's entry (a, b) is  tanh (∑ r < 20000, x (a, r) · W (r, b) + bias (b)),  which is what the reference's
  dot_general, broadcast, add and tanh give at (a, b).

  The three frames: the two kernel programs' are the generated frame certificates; the reference has no kernel and
  its frame is its generated run with the result forgotten.  The idealization rewrote nothing, so there is nothing
  to preserve.
-/
import proofs.«176601_j86509231276655_1_alg».proof.Defs
import proofs.«176601_j86509231276655_1_alg».proof.Proof.Gen.Kernel
import proofs.«176601_j86509231276655_1_alg».proof.Proof.Gen.Kernel.Skeleton
import proofs.«176601_j86509231276655_1_alg».proof.Proof.Gen.Kernel.Launch
import proofs.«176601_j86509231276655_1_alg».proof.Proof.Gen.Kernel.Points
import proofs.«176601_j86509231276655_1_alg».proof.Proof.Gen.Kernel.Frame
import proofs.«176601_j86509231276655_1_alg».proof.Proof.Gen.KernelIdeal
import proofs.«176601_j86509231276655_1_alg».proof.Proof.Gen.KernelIdeal.Skeleton
import proofs.«176601_j86509231276655_1_alg».proof.Proof.Gen.KernelIdeal.Launch
import proofs.«176601_j86509231276655_1_alg».proof.Proof.Gen.KernelIdeal.Points
import proofs.«176601_j86509231276655_1_alg».proof.Proof.Gen.KernelIdeal.Frame
import proofs.«176601_j86509231276655_1_alg».proof.Proof.Gen.ReferenceIdeal
import proofs.«176601_j86509231276655_1_alg».proof.Proof.Gen.ReferenceIdeal.Run
import proofs.«176601_j86509231276655_1_alg».proof.Proof.Gen.ReferenceIdeal.Read
import proofs.«176601_j86509231276655_1_alg».proof.Proof.Gen.Pre_finite_inputs
import proofs.«176601_j86509231276655_1_alg».proof.Proof.Bridge
import Idealize.ShloMosaic.Adequacy
import Idealize.ShloMosaic.Init

noncomputable section

namespace Cert.Proof

open Idealize.ShloMosaic Idealize.ShloMosaic.TcCoe Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same [256, 8000] array: the kernel's run leaves the slice of its result array,
    the reference's run leaves its last stage, and the two are one function of arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, (hagree c).1, (hagree c).2.1, (hagree c).2.2.1, (hagree c).2.2.2]
  exact Cert.Bridge.result_eq m c

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
